-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x300 : Shape := ⟨2, ![50000, 300]⟩
abbrev S800000 : Shape := ⟨1, ![800000]⟩
abbrev S5000 : Shape := ⟨1, ![5000]⟩
abbrev S300x256 : Shape := ⟨2, ![300, 256]⟩
abbrev S256 : Shape := ⟨1, ![256]⟩
abbrev S256x20 : Shape := ⟨2, ![256, 20]⟩
abbrev S20 : Shape := ⟨1, ![20]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S800000 : S_.BroadcastsInDim S800000 (![] : Fin 0 → Fin S800000.rank)
  reducesTo_S800000_S_d0 : S800000.ReducesTo [0] S_
  bcast_S_S300x256 : S_.BroadcastsInDim S300x256 (![] : Fin 0 → Fin S300x256.rank)
  reducesTo_S300x256_S_d0_1 : S300x256.ReducesTo [0, 1] S_
  bcast_S_S256 : S_.BroadcastsInDim S256 (![] : Fin 0 → Fin S256.rank)
  reducesTo_S256_S_d0 : S256.ReducesTo [0] S_
  bcast_S_S256x20 : S_.BroadcastsInDim S256x20 (![] : Fin 0 → Fin S256x20.rank)
  reducesTo_S256x20_S_d0_1 : S256x20.ReducesTo [0, 1] S_
  bcast_S_S20 : S_.BroadcastsInDim S20 (![] : Fin 0 → Fin S20.rank)
  reducesTo_S20_S_d0 : S20.ReducesTo [0] S_

variable [Facts]

def fn_part1 {F : FTy → Type} [FloatOps F] (main_arg9 : FVec F S256 .f32) (main_arg10 : FVec F S256x20 .f32) (main_arg11 : FVec F S20 .f32) (main_v13 : IVec S_ 1) (main_v16 : IVec S300x256 1) : IVec S_ 1 :=
  let main_c_5 : IVec S_ 1 := constantI S_ 1 1#1
  let main_v17 : IVec S_ 1 := (fun x v => Host.reduce IntOp.andi x v reducesTo_S300x256_S_d0_1 h_S_) main_v16 main_c_5
  let main_v18 : IVec S_ 1 := andi main_v13 main_v17
  let main_v19 : FVec F S256 .f32 := Host.absf main_arg9
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x20 .f32 := Host.absf main_arg10
  let main_cst_8 : FVec F S_ .f32 := constant S_ .f32 0x7F800000#32
  let main_v25 : FVec F S256x20 .f32 := broadcastInDim S256x20 ![] bcast_S_S256x20 main_cst_8
  let main_v26 : IVec S256x20 1 := cmpf .olt main_v24 main_v25
  let main_c_9 : IVec S_ 1 := constantI S_ 1 1#1
  let main_v27 : IVec S_ 1 := (fun x v => Host.reduce IntOp.andi x v reducesTo_S256x20_S_d0_1 h_S_) main_v26 main_c_9
  let main_v28 : IVec S_ 1 := andi main_v23 main_v27
  let main_v29 : FVec F S20 .f32 := Host.absf main_arg11
  let main_cst_10 : FVec F S_ .f32 := constant S_ .f32 0x7F800000#32
  let main_v30 : FVec F S20 .f32 := broadcastInDim S20 ![] bcast_S_S20 main_cst_10
  let main_v31 : IVec S20 1 := cmpf .olt main_v29 main_v30
  let main_c_11 : IVec S_ 1 := constantI S_ 1 1#1
  let main_v32 : IVec S_ 1 := (fun x v => Host.reduce IntOp.andi x v reducesTo_S20_S_d0 h_S_) main_v31 main_c_11
  let main_v33 : IVec S_ 1 := andi main_v28 main_v32
  main_v33

def fn {F : FTy → Type} [FloatOps F] (main_arg0 : FVec F S50000x300 .f32) (main_arg1 : IVec S800000 32) (main_arg2 : IVec S800000 32) (main_arg3 : FVec F S800000 .f32) (main_arg4 : IVec S800000 32) (main_arg5 : IVec S800000 32) (main_arg6 : FVec F S800000 .f32) (main_arg7 : IVec S5000 32) (main_arg8 : FVec F S300x256 .f32) (main_arg9 : FVec F S256 .f32) (main_arg10 : FVec F S256x20 .f32) (main_arg11 : FVec F S20 .f32) : IVec S_ 1 :=
  let main_v0 : FVec F S50000x300 .f32 := Host.absf main_arg0
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S800000 .f32 := Host.absf main_arg6
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S300x256 .f32 := Host.absf main_arg8
  let main_cst_4 : FVec F S_ .f32 := constant S_ .f32 0x7F800000#32
  let main_v15 : FVec F S300x256 .f32 := broadcastInDim S300x256 ![] bcast_S_S300x256 main_cst_4
  let main_v16 : IVec S300x256 1 := cmpf .olt main_v14 main_v15
  fn_part1 (F := F) main_arg9 main_arg10 main_arg11 main_v13 main_v16
-- ==== Kernel.lean ====
abbrev S50000x300 : Shape := ⟨2, ![50000, 300]⟩
abbrev S800000 : Shape := ⟨1, ![800000]⟩
abbrev S5000 : Shape := ⟨1, ![5000]⟩
abbrev S300x256 : Shape := ⟨2, ![300, 256]⟩
abbrev S256 : Shape := ⟨1, ![256]⟩
abbrev S256x20 : Shape := ⟨2, ![256, 20]⟩
abbrev S20 : Shape := ⟨1, ![20]⟩
abbrev S50000x256 : Shape := ⟨2, ![50000, 256]⟩
abbrev S2000x300 : Shape := ⟨2, ![2000, 300]⟩
abbrev S2000x256 : Shape := ⟨2, ![2000, 256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩
abbrev S50000x20 : Shape := ⟨2, ![50000, 20]⟩
abbrev S2000x20 : Shape := ⟨2, ![2000, 20]⟩
abbrev S800000x20 : Shape := ⟨2, ![800000, 20]⟩
abbrev S1x20 : Shape := ⟨2, ![1, 20]⟩
abbrev S5000x1 : Shape := ⟨2, ![5000, 1]⟩
abbrev S5000x20 : Shape := ⟨2, ![5000, 20]⟩

abbrev nBuf : Space → Nat
  | .hbm => 78
  | .vmem => 10
  | .smem => 0
  | _ => 0

abbrev bufTy : (tb : Table) → Fin (tcTables nBuf tb) → BufTy
  | .hbm, ⟨0, _⟩ => ⟨S50000x300, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S800000, .f32⟩
  | .hbm, ⟨7, _⟩ => ⟨S5000, .i32⟩
  | .hbm, ⟨8, _⟩ => ⟨S300x256, .f32⟩
  | .hbm, ⟨9, _⟩ => ⟨S256, .f32⟩
  | .hbm, ⟨10, _⟩ => ⟨S256x20, .f32⟩
  | .hbm, ⟨11, _⟩ => ⟨S20, .f32⟩
  | .hbm, ⟨12, _⟩ => ⟨S50000x256, .f32⟩
  | .hbm, ⟨13, _⟩ => ⟨S800000x1, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x256, .f32⟩
  | .hbm, ⟨23, _⟩ => ⟨S800000x256, .f32⟩
  | .hbm, ⟨24, _⟩ => ⟨S800000x256, .f32⟩
  | .hbm, ⟨25, _⟩ => ⟨S_, .f32⟩
  | .hbm, ⟨26, _⟩ => ⟨S50000x256, .f32⟩
  | .hbm, ⟨27, _⟩ => ⟨S800000x1, .i32⟩
  | .hbm, ⟨28, _⟩ => ⟨S50000x256, .f32⟩
  | .hbm, ⟨29, _⟩ => ⟨S1x256, .f32⟩
  | .hbm, ⟨30, _⟩ => ⟨S50000x256, .f32⟩
  | .hbm, ⟨31, _⟩ => ⟨S50000x256, .f32⟩
  | .hbm, ⟨32, _⟩ => ⟨S_, .f32⟩
  | .hbm, ⟨33, _⟩ => ⟨S50000x256, .f32⟩
  | .hbm, ⟨34, _⟩ => ⟨S50000x256, .f32⟩
  | .hbm, ⟨35, _⟩ => ⟨S50000x20, .f32⟩
  | .hbm, ⟨36, _⟩ => ⟨S800000x1, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x20, .f32⟩
  | .hbm, ⟨46, _⟩ => ⟨S800000x20, .f32⟩
  | .hbm, ⟨47, _⟩ => ⟨S800000x20, .f32⟩
  | .hbm, ⟨48, _⟩ => ⟨S_, .f32⟩
  | .hbm, ⟨49, _⟩ => ⟨S50000x20, .f32⟩
  | .hbm, ⟨50, _⟩ => ⟨S800000x1, .i32⟩
  | .hbm, ⟨51, _⟩ => ⟨S50000x20, .f32⟩
  | .hbm, ⟨52, _⟩ => ⟨S1x20, .f32⟩
  | .hbm, ⟨53, _⟩ => ⟨S50000x20, .f32⟩
  | .hbm, ⟨54, _⟩ => ⟨S50000x20, .f32⟩
  | .hbm, ⟨55, _⟩ => ⟨S_, .i32⟩
  | .hbm, ⟨56, _⟩ => ⟨S5000, .i32⟩
  | .hbm, ⟨57, _⟩ => ⟨S5000, .i1⟩
  | .hbm, ⟨58, _⟩ => ⟨S_, .i32⟩
  | .hbm, ⟨59, _⟩ => ⟨S5000, .i32⟩
  | .hbm, ⟨60, _⟩ => ⟨S5000, .i32⟩
  | .hbm, ⟨61, _⟩ => ⟨S5000, .i32⟩
  | .hbm, ⟨62, _⟩ => ⟨S5000x1, .i32⟩
  | .hbm, ⟨63, _⟩ => ⟨S5000x20, .f32⟩
  | .hbm, ⟨64, _⟩ => ⟨S_, .f32⟩
  | .hbm, ⟨65, _⟩ => ⟨S5000, .f32⟩
  | .hbm, ⟨66, _⟩ => ⟨S_, .f32⟩
  | .hbm, ⟨67, _⟩ => ⟨S5000, .f32⟩
  | .hbm, ⟨68, _⟩ => ⟨S5000, .f32⟩
  | .hbm, ⟨69, _⟩ => ⟨S5000x1, .f32⟩
  | .hbm, ⟨70, _⟩ => ⟨S5000x20, .f32⟩
  | .hbm, ⟨71, _⟩ => ⟨S5000x20, .f32⟩
  | .hbm, ⟨72, _⟩ => ⟨S5000x20, .f32⟩
  | .hbm, ⟨73, _⟩ => ⟨S_, .f32⟩
  | .hbm, ⟨74, _⟩ => ⟨S5000, .f32⟩
  | .hbm, ⟨75, _⟩ => ⟨S5000x1, .f32⟩
  | .hbm, ⟨76, _⟩ => ⟨S5000x20, .f32⟩
  | .hbm, ⟨77, _⟩ => ⟨S5000x20, .f32⟩
  | .local _ .vmem, ⟨0, _⟩ => ⟨S2000x300, .f32⟩
  | .local _ .vmem, ⟨1, _⟩ => ⟨S2000x300, .f32⟩
  | .local _ .vmem, ⟨2, _⟩ => ⟨S300x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x20, .f32⟩
  | .local _ .vmem, ⟨8, _⟩ => ⟨S2000x20, .f32⟩
  | .local _ .vmem, ⟨9, _⟩ => ⟨S2000x20, .f32⟩
  | _, _ => ⟨S50000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_cst : Ref sig .tc := ⟨.hbm, 32, rfl⟩
abbrev main_call0_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_1 : Ref sig .tc := ⟨.hbm, 37, rfl⟩
abbrev main_v20 : Ref sig .tc := ⟨.hbm, 38, rfl⟩
abbrev main_v21 : Ref sig .tc := ⟨.hbm, 39, rfl⟩
abbrev main_c_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_4 : Ref sig .tc := ⟨.hbm, 55, rfl⟩
abbrev main_v35 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x20 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x20 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x300_S2000x300_0_0 : ∀ a, (![0, 0] : Fin 2 → Nat) a + S2000x300.size a ≤ S2000x300.size a
  h_S2000x300 : 0 < S2000x300.numel
  bitsLt_bf16_f32 : FTy.bits .bf16 < FTy.bits .f32
  inb_S300x256_S300x256_0_0 : ∀ a, (![0, 0] : Fin 2 → Nat) a + S300x256.size a ≤ S300x256.size a
  h_S300x256 : 0 < S300x256.numel
  inb_S2000x256_S2000x256_0_0 : ∀ a, (![0, 0] : Fin 2 → Nat) a + S2000x256.size a ≤ S2000x256.size a
  h_S2000x256 : 0 < S2000x256.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x20_S256x20_0_0 : ∀ a, (![0, 0] : Fin 2 → Nat) a + S256x20.size a ≤ S256x20.size a
  h_S256x20 : 0 < S256x20.numel
  inb_S2000x20_S2000x20_0_0 : ∀ a, (![0, 0] : Fin 2 → Nat) a + S2000x20.size a ≤ S2000x20.size a
  h_S2000x20 : 0 < S2000x20.numel
  bcast_S800000x1_S800000x20_0_1 : S800000x1.BroadcastsInDim S800000x20 (![0, 1] : Fin 2 → Fin S800000x20.rank)
  bcast_S_S50000x20 : S_.BroadcastsInDim S50000x20 (![] : Fin 0 → Fin S50000x20.rank)
  bcast_S20_S1x20_1 : S20.BroadcastsInDim S1x20 (![1] : Fin 1 → Fin S1x20.rank)
  bcast_S1x20_S50000x20_0_1 : S1x20.BroadcastsInDim S50000x20 (![0, 1] : Fin 2 → Fin S50000x20.rank)
  bcast_S_S5000 : S_.BroadcastsInDim S5000 (![] : Fin 0 → Fin S5000.rank)
  bcast_S5000_S5000x1_0 : S5000.BroadcastsInDim S5000x1 (![0] : Fin 1 → Fin S5000x1.rank)
  reducesTo_S5000x20_S5000_d1 : S5000x20.ReducesTo [1] S5000
  h_S_ : 0 < S_.numel
  bcast_S5000x1_S5000x20_0_1 : S5000x1.BroadcastsInDim S5000x20 (![0, 1] : Fin 2 → Fin S5000x20.rank)
  dot_S2000x300_S300x256_S2000x256_1_0_0_1_n_n_wf : DotDims.WF S2000x300 S300x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x20_S2000x20_1_0_0_1_n_n_wf : DotDims.WF S2000x256 S256x20 S2000x20 [1] [0] [0] [1] [] []
  gather_S50000x20_S800000x1_S800000x20_1_0_n_n_0_1_120_wf : GatherDims.WF S50000x20 S800000x1 S800000x20 [1] [0] [] [0] [] 1 ![1, 20]
  scatter_S50000x20_S800000x1_S800000x20_1_0_0_1_wf : ScatterDims.WF S50000x20 S800000x1 S800000x20 [1] [0] [0] 1
  gather_S50000x20_S5000x1_S5000x20_1_0_n_n_0_1_120_wf : GatherDims.WF S50000x20 S5000x1 S5000x20 [1] [0] [] [0] [] 1 ![1, 20]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x300.size a ≤ S50000x300.size a
  hwx0_0 : ∀ i : grid0.Coords, EltTy.bits .f32 = 32 ∨ (Rect.block (s := S50000x300) S2000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x256.size a ≤ S300x256.size a
  hwx0_1 : ∀ i : grid0.Coords, EltTy.bits .f32 = 32 ∨ (Rect.block (s := S300x256) S300x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x20.size a ≤ S256x20.size a
  hwx1_1 : ∀ i : grid1.Coords, EltTy.bits .f32 = 32 ∨ (Rect.block (s := S256x20) S256x20.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x20.size a ≤ S50000x20.size a
  hwx1_2 : ∀ i : grid1.Coords, EltTy.bits .f32 = 32 ∨ (Rect.block (s := S50000x20) S2000x20.size (cc1_transform_2 i) (hinb1_2 i)).WholeWords (EltTy.packing .f32)

variable [Facts₀]

def dot_S2000x300_S300x256_S2000x256_1_0_0_1_n_n : DotDims S2000x300 S300x256 S2000x256 where
  lhsContracting := [1]
  rhsContracting := [0]
  lhsNonContracting := [0]
  rhsNonContracting := [1]
  lhsBatch := []
  rhsBatch := []
  wf := dot_S2000x300_S300x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x20_S2000x20_1_0_0_1_n_n : DotDims S2000x256 S256x20 S2000x20 where
  lhsContracting := [1]
  rhsContracting := [0]
  lhsNonContracting := [0]
  rhsNonContracting := [1]
  lhsBatch := []
  rhsBatch := []
  wf := dot_S2000x256_S256x20_S2000x20_1_0_0_1_n_n_wf
def gather_S50000x20_S800000x1_S800000x20_1_0_n_n_0_1_120 : GatherDims S50000x20 S800000x1 S800000x20 where
  offsetDims := [1]
  collapsedSliceDims := [0]
  operandBatchingDims := []
  startIndicesBatchingDims := []
  startIndexMap := [0]
  indexVectorDim := 1
  sliceSizes := ![1, 20]
  wf := gather_S50000x20_S800000x1_S800000x20_1_0_n_n_0_1_120_wf
def scatter_S50000x20_S800000x1_S800000x20_1_0_0_1 : ScatterDims S50000x20 S800000x1 S800000x20 where
  updateWindowDims := [1]
  insertedWindowDims := [0]
  scatterDimsToOperandDims := [0]
  indexVectorDim := 1
  wf := scatter_S50000x20_S800000x1_S800000x20_1_0_0_1_wf
def gather_S50000x20_S5000x1_S5000x20_1_0_n_n_0_1_120 : GatherDims S50000x20 S5000x1 S5000x20 where
  offsetDims := [1]
  collapsedSliceDims := [0]
  operandBatchingDims := []
  startIndicesBatchingDims := []
  startIndexMap := [0]
  indexVectorDim := 1
  sliceSizes := ![1, 20]
  wf := gather_S50000x20_S5000x1_S5000x20_1_0_n_n_0_1_120_wf

abbrev win0_0 : Pipeline.Window sig grid0 :=
  Pipeline.Window.ofSpec (Memref.whole main_arg0) S2000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S300x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S256x20.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x20.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x300 : Shape := ⟨2, ![50000, 300]⟩
abbrev S800000 : Shape := ⟨1, ![800000]⟩
abbrev S5000 : Shape := ⟨1, ![5000]⟩
abbrev S300x256 : Shape := ⟨2, ![300, 256]⟩
abbrev S256 : Shape := ⟨1, ![256]⟩
abbrev S256x20 : Shape := ⟨2, ![256, 20]⟩
abbrev S20 : Shape := ⟨1, ![20]⟩
abbrev S50000x256 : Shape := ⟨2, ![50000, 256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩
abbrev S50000x20 : Shape := ⟨2, ![50000, 20]⟩
abbrev S800000x20 : Shape := ⟨2, ![800000, 20]⟩
abbrev S1x20 : Shape := ⟨2, ![1, 20]⟩
abbrev S50000 : Shape := ⟨1, ![50000]⟩
abbrev S50000x1 : Shape := ⟨2, ![50000, 1]⟩
abbrev S5000x1 : Shape := ⟨2, ![5000, 1]⟩
abbrev S5000x20 : Shape := ⟨2, ![5000, 20]⟩

abbrev nBuf : Space → Nat
  | .hbm => 78
  | .vmem => 0
  | .smem => 0
  | _ => 0

abbrev bufTy : (tb : Table) → Fin (tcTables nBuf tb) → BufTy
  | .hbm, ⟨0, _⟩ => ⟨S50000x300, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S800000, .f32⟩
  | .hbm, ⟨7, _⟩ => ⟨S5000, .i32⟩
  | .hbm, ⟨8, _⟩ => ⟨S300x256, .f32⟩
  | .hbm, ⟨9, _⟩ => ⟨S256, .f32⟩
  | .hbm, ⟨10, _⟩ => ⟨S256x20, .f32⟩
  | .hbm, ⟨11, _⟩ => ⟨S20, .f32⟩
  | .hbm, ⟨12, _⟩ => ⟨S50000x256, .f32⟩
  | .hbm, ⟨13, _⟩ => ⟨S800000x1, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x256, .f32⟩
  | .hbm, ⟨23, _⟩ => ⟨S800000x256, .f32⟩
  | .hbm, ⟨24, _⟩ => ⟨S800000x256, .f32⟩
  | .hbm, ⟨25, _⟩ => ⟨S_, .f32⟩
  | .hbm, ⟨26, _⟩ => ⟨S50000x256, .f32⟩
  | .hbm, ⟨27, _⟩ => ⟨S800000x1, .i32⟩
  | .hbm, ⟨28, _⟩ => ⟨S50000x256, .f32⟩
  | .hbm, ⟨29, _⟩ => ⟨S1x256, .f32⟩
  | .hbm, ⟨30, _⟩ => ⟨S50000x256, .f32⟩
  | .hbm, ⟨31, _⟩ => ⟨S50000x256, .f32⟩
  | .hbm, ⟨32, _⟩ => ⟨S_, .f32⟩
  | .hbm, ⟨33, _⟩ => ⟨S50000x256, .f32⟩
  | .hbm, ⟨34, _⟩ => ⟨S50000x256, .f32⟩
  | .hbm, ⟨35, _⟩ => ⟨S50000x20, .f32⟩
  | .hbm, ⟨36, _⟩ => ⟨S800000x1, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x20, .f32⟩
  | .hbm, ⟨46, _⟩ => ⟨S800000x20, .f32⟩
  | .hbm, ⟨47, _⟩ => ⟨S800000x20, .f32⟩
  | .hbm, ⟨48, _⟩ => ⟨S_, .f32⟩
  | .hbm, ⟨49, _⟩ => ⟨S50000x20, .f32⟩
  | .hbm, ⟨50, _⟩ => ⟨S800000x1, .i32⟩
  | .hbm, ⟨51, _⟩ => ⟨S50000x20, .f32⟩
  | .hbm, ⟨52, _⟩ => ⟨S1x20, .f32⟩
  | .hbm, ⟨53, _⟩ => ⟨S50000x20, .f32⟩
  | .hbm, ⟨54, _⟩ => ⟨S50000x20, .f32⟩
  | .hbm, ⟨55, _⟩ => ⟨S_, .f32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000x1, .f32⟩
  | .hbm, ⟨61, _⟩ => ⟨S50000x20, .f32⟩
  | .hbm, ⟨62, _⟩ => ⟨S50000x20, .f32⟩
  | .hbm, ⟨63, _⟩ => ⟨S50000x20, .f32⟩
  | .hbm, ⟨64, _⟩ => ⟨S_, .f32⟩
  | .hbm, ⟨65, _⟩ => ⟨S50000, .f32⟩
  | .hbm, ⟨66, _⟩ => ⟨S50000x1, .f32⟩
  | .hbm, ⟨67, _⟩ => ⟨S50000x20, .f32⟩
  | .hbm, ⟨68, _⟩ => ⟨S50000x20, .f32⟩
  | .hbm, ⟨69, _⟩ => ⟨S_, .i32⟩
  | .hbm, ⟨70, _⟩ => ⟨S5000, .i32⟩
  | .hbm, ⟨71, _⟩ => ⟨S5000, .i1⟩
  | .hbm, ⟨72, _⟩ => ⟨S_, .i32⟩
  | .hbm, ⟨73, _⟩ => ⟨S5000, .i32⟩
  | .hbm, ⟨74, _⟩ => ⟨S5000, .i32⟩
  | .hbm, ⟨75, _⟩ => ⟨S5000, .i32⟩
  | .hbm, ⟨76, _⟩ => ⟨S5000x1, .i32⟩
  | .hbm, ⟨77, _⟩ => ⟨S5000x20, .f32⟩
  | _, _ => ⟨S50000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_cst : Ref sig .tc := ⟨.hbm, 32, rfl⟩
abbrev main_call0_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_1 : Ref sig .tc := ⟨.hbm, 37, rfl⟩
abbrev main_v20 : Ref sig .tc := ⟨.hbm, 38, rfl⟩
abbrev main_v21 : Ref sig .tc := ⟨.hbm, 39, rfl⟩
abbrev main_c_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_7 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x20_0_1 : S800000x1.BroadcastsInDim S800000x20 (![0, 1] : Fin 2 → Fin S800000x20.rank)
  bcast_S_S50000x20 : S_.BroadcastsInDim S50000x20 (![] : Fin 0 → Fin S50000x20.rank)
  bcast_S20_S1x20_1 : S20.BroadcastsInDim S1x20 (![1] : Fin 1 → Fin S1x20.rank)
  bcast_S1x20_S50000x20_0_1 : S1x20.BroadcastsInDim S50000x20 (![0, 1] : Fin 2 → Fin S50000x20.rank)
  reducesTo_S50000x20_S50000_d1 : S50000x20.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x20_0_1 : S50000x1.BroadcastsInDim S50000x20 (![0, 1] : Fin 2 → Fin S50000x20.rank)
  bcast_S_S5000 : S_.BroadcastsInDim S5000 (![] : Fin 0 → Fin S5000.rank)
  bcast_S5000_S5000x1_0 : S5000.BroadcastsInDim S5000x1 (![0] : Fin 1 → Fin S5000x1.rank)
  dot_S50000x300_S300x256_S50000x256_1_0_0_1_n_n_wf : DotDims.WF S50000x300 S300x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x20_S50000x20_1_0_0_1_n_n_wf : DotDims.WF S50000x256 S256x20 S50000x20 [1] [0] [0] [1] [] []
  gather_S50000x20_S800000x1_S800000x20_1_0_n_n_0_1_120_wf : GatherDims.WF S50000x20 S800000x1 S800000x20 [1] [0] [] [0] [] 1 ![1, 20]
  scatter_S50000x20_S800000x1_S800000x20_1_0_0_1_wf : ScatterDims.WF S50000x20 S800000x1 S800000x20 [1] [0] [0] 1
  gather_S50000x20_S5000x1_S5000x20_1_0_n_n_0_1_120_wf : GatherDims.WF S50000x20 S5000x1 S5000x20 [1] [0] [] [0] [] 1 ![1, 20]

variable [Facts₀]

def dot_S50000x300_S300x256_S50000x256_1_0_0_1_n_n : DotDims S50000x300 S300x256 S50000x256 where
  lhsContracting := [1]
  rhsContracting := [0]
  lhsNonContracting := [0]
  rhsNonContracting := [1]
  lhsBatch := []
  rhsBatch := []
  wf := dot_S50000x300_S300x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x20_S50000x20_1_0_0_1_n_n : DotDims S50000x256 S256x20 S50000x20 where
  lhsContracting := [1]
  rhsContracting := [0]
  lhsNonContracting := [0]
  rhsNonContracting := [1]
  lhsBatch := []
  rhsBatch := []
  wf := dot_S50000x256_S256x20_S50000x20_1_0_0_1_n_n_wf
def gather_S50000x20_S800000x1_S800000x20_1_0_n_n_0_1_120 : GatherDims S50000x20 S800000x1 S800000x20 where
  offsetDims := [1]
  collapsedSliceDims := [0]
  operandBatchingDims := []
  startIndicesBatchingDims := []
  startIndexMap := [0]
  indexVectorDim := 1
  sliceSizes := ![1, 20]
  wf := gather_S50000x20_S800000x1_S800000x20_1_0_n_n_0_1_120_wf
def scatter_S50000x20_S800000x1_S800000x20_1_0_0_1 : ScatterDims S50000x20 S800000x1 S800000x20 where
  updateWindowDims := [1]
  insertedWindowDims := [0]
  scatterDimsToOperandDims := [0]
  indexVectorDim := 1
  wf := scatter_S50000x20_S800000x1_S800000x20_1_0_0_1_wf
def gather_S50000x20_S5000x1_S5000x20_1_0_n_n_0_1_120 : GatherDims S50000x20 S5000x1 S5000x20 where
  offsetDims := [1]
  collapsedSliceDims := [0]
  operandBatchingDims := []
  startIndicesBatchingDims := []
  startIndexMap := [0]
  indexVectorDim := 1
  sliceSizes := ![1, 20]
  wf := gather_S50000x20_S5000x1_S5000x20_1_0_n_n_0_1_120_wf

class Facts : Prop extends Facts₀ where

variable [Facts]
-- ==== Proof.KernelRun.lean ====
/-
  The kernel program's run, read at any buffer.

  @main is five segments: the first pallas_call, a stretch of host operations (the first layer's sparse product, its
  bias and its clamp at zero), the second pallas_call, and the last stretch (the second layer's sparse product and bias,
  the row selection and the softmax). The buffer contents at the segment boundaries form a fold from the launch memory:
  a host stretch rewrites the buffers its operations write, a pallas_call leaves in its output array what its
  write-backs leave. When the last segment ends the core holds every unscoped buffer at the last boundary's contents,
  so ANY property of the final memory that follows from "every unscoped buffer holds the fold's value" holds of every
  run (`run_reads`). Read at the result's buffer and at the arguments this is the run the value proof starts from
  (`run_result`): the result array ends at the fold read at its buffer, the arguments end as launched.
-/
import proofs.«149476_j44890998178564_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a final memory satisfies on core `c` once the last segment has ended: every unscoped buffer holds the last
    boundary's contents. -/
abbrev AtEnd (c : Dev nD) (s : MemSt nD τ sig (Elt F)) : Prop :=
  ∀ b ∈ Pipeline.ucRefs τ sig, s.mem (((c : Thread nD τ)).1, b) = W5 m ρ c b

-- the launch theorem's implicit arguments are found by unifying its conclusion with this statement, which takes
-- unfolding plain definitions in a metavariable's type
set_option backward.isDefEq.respectTransparency.types false in
/-- EVERY RUN ENDS AT THE FOLD: whatever follows from every core's unscoped buffers holding the last boundary's
    contents holds of every weakly fair execution's final state (and every such execution terminates, nothing
    faulting). The launch over @main's five segments: the ghost state dealt, the thread states chained segment to
    segment, the first made from the launch memory, the last read against the final state. -/
theorem run_reads {Q : PUnit × MemSt nD τ sig (Elt F) → Prop}
    (hQ : ∀ s : MemSt nD τ sig (Elt F), (∀ c : Dev nD, AtEnd m ρ c s) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c _ => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no core gets a ghost resource besides
      iintro Hlaunch; imodintro
      isplitl [Hlaunch]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hlaunch
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      -- the last stretch's state, regrouped: buffers and generator register, beside the core owing nothing
      dsimp only [Pipeline.Seg.post, hseg, Pipeline.HostSeg.ofOps]
      iintro ⟨Hbufs, Hreg, Howes⟩
      isplitr [Howes]
      · isplitl [Hbufs]; · iexact Hbufs
        iexact Hreg
      iexact Howes⟩)
    (hinit := by
      -- from what the launch deals a core: its unscoped buffers at the launch memory, its register, owing nothing
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := AtEnd m ρ)
    (hfin := fun c s' => by
      -- holding every unscoped buffer whole, the final state's memory agrees with the contents held
      iintro ⟨⟨Hbufs, -⟩, Hstate⟩
      unfold StableHlo.held
      imodintro
      iapply (pointsTo_read_all (Pipeline.ucRefs τ sig) (fun b => (((c : Thread nD τ)).1, b)) (W5 m ρ c) s')
      isplitl [Hbufs] <;> iassumption)
    (hQ := hQ)

/-- THE RUN WITH THE RESULT NAMED: the result array ends at the fold read at the result's buffer; every argument array
    ends as launched (no host operation and no pallas_call writes one). -/
theorem run_result : θ_run defs (onTc (τ := τ) (main (F := F))) ⟨m, fun _ => 0, ρ⟩ (fun r => ∀ c : Dev nD,
      r.2.mem ((c.tc : Thread nD τ).loc main_v52) = W5 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_reads m ρ fun s h c =>
    ⟨h c _ (mem_uc main_v52 (by decide)),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c)⟩

end Cert.KernelIdeal.Result

end
-- ==== Proof.LibRowOps.lean ====
/-
  Rows of a matrix on the extended reals: a plain matrix product read at an entry, and a row's maximum.

  • A matrix product `[a, K] × [K, b]` whose dimension numbers contract the one shared axis reads, at the entry
    `(r, q)`, as the sum over `k : Fin K` of `lhs (r, k) · rhs (k, q)` — for the kernel's product into a zero
    accumulator and for the host's product alike.  The dimension numbers enter only through four coordinate facts
    (which operand coordinate is the output's, which is the contraction's), so the lemma serves any record.
  • The maximum over the lanes of an `[a, b]` matrix, read at row `p`, is the fold of `max` over that row's entries
    from the accumulator's value — for the kernel's lane reduction and for the host's one-axis reduction alike.
-/
import Idealize.ShloMosaic.Lib.Pipeline.Value
import Idealize.ShloMosaic.Lib.ValueIdx
import Idealize.ShloMosaic.PureOps.Ideal.Laws

namespace Cert.RowOps

open Idealize.ShloMosaic Idealize.ShloMosaic.ValueIdx
open scoped BigOperators

/-- The contraction's sum re-indexed by the one contracted coordinate, for operands read at indices whose
    coordinates are those of a plain product. -/
theorem contr_sum_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![a, K]⟩ φ₁) (rhs : FVec Ideal ⟨2, ![K, b]⟩ φ₂) (r : Fin a) (q : Fin b) :
    ∑ k : d.contr.Idx, lhs (d.lhsIdx (ix2 r q) k) * rhs (d.rhsIdx (ix2 r q) k)
      = ∑ k : Fin K, lhs (ix2 r k) * rhs (ix2 k q) := by
  rw [← Equiv.sum_comp (contrEquiv1 d K hr hs).symm]
  refine Finset.sum_congr rfl fun k _ => ?_
  have hk := contrEquiv1_symm_val d K hr hs k
  have el : d.lhsIdx (ix2 r q) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r q) ((contrEquiv1 d K hr hs).symm k) = ix2 k q := funext fun ax => Fin.ext (by
    match ax with
    | ⟨0, _⟩ => exact (hr0 _ _).trans hk
    | ⟨1, _⟩ => exact hr1 _ _)
  rw [el, er]

/-- The kernel's product into a zero accumulator, at an entry. -/
theorem matmul_zero_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    matmul d prec lhs rhs (constant (F := Ideal) ⟨2, ![a, b]⟩ .f32 0x00000000#32) (ix2 r q)
      = ∑ k : Fin K, lhs (ix2 r k) * rhs (ix2 k q) :=
  (Ideal.matmul_constant_zero_apply d prec lhs rhs (ix2 r q)).trans
    (contr_sum_entry d hr hs hl0 hl1 hr0 hr1 lhs rhs r q)

/-- The host's product, at an entry. -/
theorem dotGeneral_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    Host.dotGeneral (F := Ideal) d prec lhs rhs (ix2 r q) = ∑ k : Fin K, lhs (ix2 r k) * rhs (ix2 k q) := by
  simp only [Host.dotGeneral]
  exact (Ideal.dotGeneral_apply d prec _ lhs rhs (ix2 r q)).trans
    (contr_sum_entry d hr hs hl0 hl1 hr0 hr1 lhs rhs r q)

/-- The kernel's maximum over the lanes, at a row: the fold of `max` over the row from the accumulator's value. -/
theorem multiReduction_max_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg (Finset.fold max _ · _) (funext fun k => ?_)
  exact congrArg src (funext fun c => Fin.ext (by match c with | ⟨0, _⟩ => rfl | ⟨1, _⟩ => rfl))

/-- The host's maximum over the lanes, at a row: the same fold from the initial value. -/
theorem hostReduce_max_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := φ)) x init h' hu (ix1 p)
      = (Finset.univ : Finset (Fin b)).fold max (init ix0) (fun k => x (ix2 p k)) := by
  refine (Host.reduce_eq_fold_single FloatOps.maximumf x init h' h hu (ix1 p)).trans ?_
  rw [eq_ix0 (Shape.Idx.first hu)]
  refine congrArg (Finset.fold max _ · _) (funext fun k => ?_)
  exact congrArg x (funext fun c => Fin.ext (by match c with | ⟨0, _⟩ => rfl | ⟨1, _⟩ => rfl))

end Cert.RowOps
-- ==== Proof.BlockProduct.lean ====
/-
  What each kernel body stores, entry by entry, on the extended reals.

  Both kernel bodies load a block of rows A (2000 × K) and the whole weight matrix W (K × n), narrow both to bf16 — the
  identity on the extended reals — and store their product into a zero accumulator. Entry (p, q) of the stored block is
  therefore the plain sum over k of A (p, k) · W (k, q): the four coordinate facts of the product's dimension numbers
  say that the left operand is read at (row, k) and the right one at (k, column).
-/
import proofs.«149476_j44890998178564_1_alg».proof.Proof.Gen.KernelIdeal.Skeleton
import proofs.«149476_j44890998178564_1_alg».proof.Proof.LibRowOps
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.ValueIdx
open scoped BigOperators

/-! ## The first layer's product: (2000 × 300) · (300 × 256) -/

theorem first_lhs_row (i : S2000x256.Idx) (q : dot_S2000x300_S300x256_S2000x256_1_0_0_1_n_n.contr.Idx) :
    (dot_S2000x300_S300x256_S2000x256_1_0_0_1_n_n.lhsIdx i q 0).val = (i 0).val := by
  unfold DotDims.lhsIdx
  rw [dif_neg (show ¬(0 : Fin S2000x300.rank) ∈ dot_S2000x300_S300x256_S2000x256_1_0_0_1_n_n.lhsBatch by decide),
    dif_pos (show (0 : Fin S2000x300.rank) ∈ dot_S2000x300_S300x256_S2000x256_1_0_0_1_n_n.lhsNonContracting by decide)]
  rfl
theorem first_lhs_k (i : S2000x256.Idx) (q : dot_S2000x300_S300x256_S2000x256_1_0_0_1_n_n.contr.Idx) :
    (dot_S2000x300_S300x256_S2000x256_1_0_0_1_n_n.lhsIdx i q 1).val = (q ⟨0, by decide⟩).val :=
  dot_S2000x300_S300x256_S2000x256_1_0_0_1_n_n.lhsIdx_val_of_single rfl i q
theorem first_rhs_k (i : S2000x256.Idx) (q : dot_S2000x300_S300x256_S2000x256_1_0_0_1_n_n.contr.Idx) :
    (dot_S2000x300_S300x256_S2000x256_1_0_0_1_n_n.rhsIdx i q 0).val = (q ⟨0, by decide⟩).val :=
  dot_S2000x300_S300x256_S2000x256_1_0_0_1_n_n.rhsIdx_val_of_single rfl i q
theorem first_rhs_col (i : S2000x256.Idx) (q : dot_S2000x300_S300x256_S2000x256_1_0_0_1_n_n.contr.Idx) :
    (dot_S2000x300_S300x256_S2000x256_1_0_0_1_n_n.rhsIdx i q 1).val = (i 1).val := by
  unfold DotDims.rhsIdx
  rw [dif_neg (show ¬(1 : Fin S300x256.rank) ∈ dot_S2000x300_S300x256_S2000x256_1_0_0_1_n_n.rhsBatch by decide),
    dif_pos (show (1 : Fin S300x256.rank) ∈ dot_S2000x300_S300x256_S2000x256_1_0_0_1_n_n.rhsNonContracting by decide)]
  rfl

/-- Entry (p, q) of the first body's stored block: the row p of its row block against column q of the weights. -/
theorem first_entry (x0 : Vec Ideal S2000x300 .f32) (x1 : Vec Ideal S300x256 .f32) (p : Fin 2000) (q : Fin 256) :
    k0_pay1 (F := Ideal) x0 x1 (ix2 p q) = ∑ k : Fin 300, x0 (ix2 p k) * x1 (ix2 k q) := by
  unfold k0_pay1
  exact Cert.RowOps.matmul_zero_entry dot_S2000x300_S300x256_S2000x256_1_0_0_1_n_n rfl rfl first_lhs_row first_lhs_k first_rhs_k first_rhs_col none
    (truncf .bf16 x0 bitsLt_bf16_f32) (truncf .bf16 x1 bitsLt_bf16_f32) p q

/-! ## The second layer's product: (2000 × 256) · (256 × 20) -/

theorem second_lhs_row (i : S2000x20.Idx) (q : dot_S2000x256_S256x20_S2000x20_1_0_0_1_n_n.contr.Idx) :
    (dot_S2000x256_S256x20_S2000x20_1_0_0_1_n_n.lhsIdx i q 0).val = (i 0).val := by
  unfold DotDims.lhsIdx
  rw [dif_neg (show ¬(0 : Fin S2000x256.rank) ∈ dot_S2000x256_S256x20_S2000x20_1_0_0_1_n_n.lhsBatch by decide),
    dif_pos (show (0 : Fin S2000x256.rank) ∈ dot_S2000x256_S256x20_S2000x20_1_0_0_1_n_n.lhsNonContracting by decide)]
  rfl
theorem second_lhs_k (i : S2000x20.Idx) (q : dot_S2000x256_S256x20_S2000x20_1_0_0_1_n_n.contr.Idx) :
    (dot_S2000x256_S256x20_S2000x20_1_0_0_1_n_n.lhsIdx i q 1).val = (q ⟨0, by decide⟩).val :=
  dot_S2000x256_S256x20_S2000x20_1_0_0_1_n_n.lhsIdx_val_of_single rfl i q
theorem second_rhs_k (i : S2000x20.Idx) (q : dot_S2000x256_S256x20_S2000x20_1_0_0_1_n_n.contr.Idx) :
    (dot_S2000x256_S256x20_S2000x20_1_0_0_1_n_n.rhsIdx i q 0).val = (q ⟨0, by decide⟩).val :=
  dot_S2000x256_S256x20_S2000x20_1_0_0_1_n_n.rhsIdx_val_of_single rfl i q
theorem second_rhs_col (i : S2000x20.Idx) (q : dot_S2000x256_S256x20_S2000x20_1_0_0_1_n_n.contr.Idx) :
    (dot_S2000x256_S256x20_S2000x20_1_0_0_1_n_n.rhsIdx i q 1).val = (i 1).val := by
  unfold DotDims.rhsIdx
  rw [dif_neg (show ¬(1 : Fin S256x20.rank) ∈ dot_S2000x256_S256x20_S2000x20_1_0_0_1_n_n.rhsBatch by decide),
    dif_pos (show (1 : Fin S256x20.rank) ∈ dot_S2000x256_S256x20_S2000x20_1_0_0_1_n_n.rhsNonContracting by decide)]
  rfl

/-- Entry (p, q) of the second body's stored block (its row block is first re-laid to its own shape: the identity). -/
theorem second_entry (x0 : Vec Ideal S2000x256 .f32) (x1 : Vec Ideal S256x20 .f32) (p : Fin 2000) (q : Fin 20) :
    k1_pay1 (F := Ideal) x0 x1 (ix2 p q) = ∑ k : Fin 256, x0 (ix2 p k) * x1 (ix2 k q) := by
  unfold k1_pay1
  rw [shapeCast_self]
  exact Cert.RowOps.matmul_zero_entry dot_S2000x256_S256x20_S2000x20_1_0_0_1_n_n rfl rfl second_lhs_row second_lhs_k second_rhs_k second_rhs_col none
    (truncf .bf16 x0 bitsLt_bf16_f32) (truncf .bf16 x1 bitsLt_bf16_f32) p q

end Cert.KernelIdeal.BlockProduct

end
-- ==== Proof.LibMatProduct.lean ====
/-
  A MATRIX PRODUCT ON THE EXTENDED REALS, AND ITS ROW BLOCKS.

  `prod x w` is the product of an [a, K] matrix and a [K, b] matrix entry by entry: entry (r, q) is the sum over k of
  x (r, k) · w (k, q). An entry reads ONE row of the left factor. Hence a kernel that walks the rows of x in blocks of h
  rows, multiplying each block by the whole of w, writes in block n exactly rows n·h … n·h + h − 1 of the product of the
  whole matrices (`block_of_prod`): stated for a block product given entry by entry and a block read row by row, so it
  serves any spelling of the block product (a product into a zero accumulator, a host product) and any a, K, b, h.
  No finiteness is needed: both sides are the same finite sum.
-/
import Idealize.ShloMosaic.PureOps.Ideal
import Idealize.ShloMosaic.Lib.ValueIdx

noncomputable section

open Idealize.ShloMosaic Idealize.ShloMosaic.ValueIdx
open scoped BigOperators

namespace Cert.MatProduct

/-- The product of an [a, K] matrix and a [K, b] matrix on the extended reals, entry by entry. -/
def prod {a K b : ℕ} (x : (⟨2, ![a, K]⟩ : Shape).Idx → EReal) (w : (⟨2, ![K, b]⟩ : Shape).Idx → EReal) :
    (⟨2, ![a, b]⟩ : Shape).Idx → EReal :=
  fun i => ∑ k : Fin K, x (ix2 (⟨(i 0).val, (i 0).isLt⟩ : Fin a) k) * w (ix2 k (⟨(i 1).val, (i 1).isLt⟩ : Fin b))

/-- A block whose rows are rows n·h … of x, times w, is rows n·h … of the product: an entry of the product reads
    one row of x. Stated for a block product given entry by entry (`hblock`) and a block read row by row (`hrows`). -/
theorem block_of_prod {a K b h : ℕ} (x : (⟨2, ![a, K]⟩ : Shape).Idx → EReal) (w : (⟨2, ![K, b]⟩ : Shape).Idx → EReal)
    (xb : (⟨2, ![h, K]⟩ : Shape).Idx → EReal) (wb : (⟨2, ![K, b]⟩ : Shape).Idx → EReal)
    (out : (⟨2, ![h, b]⟩ : Shape).Idx → EReal) (n : ℕ)
    (hblock : ∀ (p : Fin h) (q : Fin b), out (ix2 p q) = ∑ k : Fin K, xb (ix2 p k) * wb (ix2 k q))
    (hrows : ∀ (p : Fin h) (k : Fin K) (r : Fin a), r.val = n * h + p.val → xb (ix2 p k) = x (ix2 r k))
    (hw : wb = w)
    (y : (⟨2, ![h, b]⟩ : Shape).Idx) (i : (⟨2, ![a, b]⟩ : Shape).Idx)
    (hi0 : (i 0).val = n * h + (y 0).val) (hi1 : (i 1).val = (y 1).val) :
    out y = prod x w i := by
  obtain ⟨p, q, rfl⟩ : ∃ (p : Fin h) (q : Fin b), y = ix2 p q := ⟨y 0, y 1, eq_ix2 y⟩
  rw [hblock p q, hw]
  unfold prod
  refine Finset.sum_congr rfl fun k _ => ?_
  rw [hrows p k ⟨(i 0).val, (i 0).isLt⟩ hi0]
  exact congrArg (_ * w ·) (congrArg (ix2 k) (Fin.ext hi1.symm))

end Cert.MatProduct

end
-- ==== Proof.RegionValue.lean ====
/-
  What each pallas_call leaves in its output array: the whole matrix product.

  Each pallas_call walks 25 grid points. At point t its first window is rows 2000·t … 2000·t + 1999 of the left array, its
  second window is the whole weight matrix at every point, and its output window is the same 2000 rows of the output
  array. The body stores the product of the two blocks, so what point t writes back is rows 2000·t … of the product of the
  WHOLE arrays: entry (r, q) of that product reads row r of the left array only. The 25 row blocks tile the output
  array (row r lies in block r / 2000), so after the pallas_call the output array IS the product.
-/
import proofs.«149476_j44890998178564_1_alg».proof.Proof.Gen.KernelIdeal.Frame
import proofs.«149476_j44890998178564_1_alg».proof.Proof.BlockProduct
import proofs.«149476_j44890998178564_1_alg».proof.Proof.LibMatProduct
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.RegionValue

open Cert.KernelIdeal Cert.KernelIdeal.Gen Cert.MatProduct

variable (V : (c : Dev nD) → (b : Ref sig .tc) → Buf (Elt Ideal) ((c : Thread nD τ).loc b))

theorem origin : (![0, 0] : Fin 2 → Nat) = fun _ => 0 := funext fun a => by fin_cases a <;> rfl

/-! ## The first pallas_call: x · W1 -/

/-- The printed index maps over the grid: the row windows sit at block row t, the weight window at the origin. -/
theorem where0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the first pallas_call computes, of the arrays as it finds them. -/
abbrev xw1 (c : Dev nD) : S50000x256.Idx → EReal :=
  prod (V c main_arg0 : S50000x300.Idx → EReal) (V c main_arg8 : S300x256.Idx → EReal)

/-- WHAT POINT t WRITES BACK is block t of the product. -/
theorem flushed0 (c : Dev nD) (t : Fin cfg0.N) :
    (dat0 V c).flushed 2 t = ((cfg0.win 2).blk t).view.read (Elt Ideal) (xw1 V c) := by
  show (cfg0.win 2).cut (grid0.coords t) ((dat0 V c).after 2 t) = _
  rw [after0_2]
  unfold out0_2
  rw [View.canon_unit_zero origin]
  simp only [View.ld_unit_zero (S := S2000x300) origin, View.ld_unit_zero (S := S300x256) origin]
  obtain ⟨e00, e01, e10, e11, e20, e21⟩ := where0 t
  funext y
  show k0_pay1 (F := Ideal) (iblk0 V c 0 t) (iblk0 V c 1 t) y = xw1 V c (((cfg0.win 2).blk t).view.emb y)
  refine block_of_prod (V c main_arg0 : S50000x300.Idx → EReal) (V c main_arg8 : S300x256.Idx → EReal)
    (iblk0 V c 0 t) (iblk0 V c 1 t) _ t.val (BlockProduct.first_entry _ _) ?_ ?_ y _ ?_ ?_
  · intro p k r hr
    show V c main_arg0 (((cfg0.win 0).blk t).view.emb (ix2 p k)) = V c main_arg0 (ix2 r k)
    refine congrArg (V c main_arg0) (funext fun ax => Fin.ext ?_)
    match ax with
    | ⟨0, _⟩ => show win0_0.index t (0 : Fin 2) * 2000 + 1 * p.val = r.val; omega
    | ⟨1, _⟩ => show win0_0.index t (1 : Fin 2) * 300 + 1 * k.val = k.val; omega
  · funext z
    show V c main_arg8 (((cfg0.win 1).blk t).view.emb z) = V c main_arg8 z
    refine congrArg (V c main_arg8) (funext fun ax => Fin.ext ?_)
    match ax with
    | ⟨0, _⟩ => show win0_1.index t (0 : Fin 2) * 300 + 1 * (z 0).val = (z 0).val; omega
    | ⟨1, _⟩ => show win0_1.index t (1 : Fin 2) * 256 + 1 * (z 1).val = (z 1).val; omega
  · show win0_2.index t (0 : Fin 2) * 2000 + 1 * (y 0).val = t.val * 2000 + (y 0).val; omega
  · show win0_2.index t (1 : Fin 2) * 256 + 1 * (y 1).val = (y 1).val; omega

/-- An index of the output array is in point t's block iff each coordinate is in the block's range on its axis. -/
theorem mem_blk0 (t : Fin cfg0.N) (i : S50000x256.Idx) :
    i ∈ ((cfg0.win 2).blk t).view.set ↔ ∀ ax : Fin 2, win0_2.index t ax * S2000x256.size ax ≤ (i ax).val
      ∧ (i ax).val < win0_2.index t ax * S2000x256.size ax + S2000x256.size ax := by
  show i ∈ ((View.whole main_v0).slice (win0_2.rect t)).set ↔ _
  rw [View.set_slice_whole, Rect.mem_set_unit]
  exact Iff.rfl

/-- THE OUTPUT ARRAY after the first pallas_call is the product x · W1 (row r lies in block r / 2000). -/
theorem final0 (c : Dev nD) : (dat0 V c).arrAt 2 cfg0.N = xw1 V c :=
  (dat0 V c).arrAt_eq_of_cover 2 (xw1 V c) (fun t _ => flushed0 V c t) fun i => by
    have hi0 : (i 0).val < 50000 := (i 0).isLt
    have hi1 : (i 1).val < 256 := (i 1).isLt
    have hN : cfg0.N = 25 := N_0
    refine ⟨⟨(i 0).val / 2000, by rw [hN]; omega⟩, flush0_2 _, ?_⟩
    rw [mem_blk0]
    obtain ⟨-, -, -, -, e20, e21⟩ := where0 ⟨(i 0).val / 2000, by rw [hN]; omega⟩
    intro ax
    match ax with
    | ⟨0, _⟩ =>
      show win0_2.index _ (0 : Fin 2) * 2000 ≤ (i 0).val ∧ (i 0).val < win0_2.index _ (0 : Fin 2) * 2000 + 2000
      rw [e20]; show (i 0).val / 2000 * 2000 ≤ (i 0).val ∧ (i 0).val < (i 0).val / 2000 * 2000 + 2000; omega
    | ⟨1, _⟩ =>
      show win0_2.index _ (1 : Fin 2) * 256 ≤ (i 1).val ∧ (i 1).val < win0_2.index _ (1 : Fin 2) * 256 + 256
      rw [e21]; omega

/-! ## The second pallas_call: h · W2 -/

theorem where1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What the second pallas_call computes, of the arrays as it finds them. -/
abbrev hw2 (c : Dev nD) : S50000x20.Idx → EReal :=
  prod (V c main_v17 : S50000x256.Idx → EReal) (V c main_arg10 : S256x20.Idx → EReal)

theorem flushed1 (c : Dev nD) (t : Fin cfg1.N) :
    (dat1 V c).flushed 2 t = ((cfg1.win 2).blk t).view.read (Elt Ideal) (hw2 V c) := by
  show (cfg1.win 2).cut (grid1.coords t) ((dat1 V c).after 2 t) = _
  rw [after1_2]
  unfold out1_2
  rw [View.canon_unit_zero origin]
  simp only [View.ld_unit_zero (S := S2000x256) origin, View.ld_unit_zero (S := S256x20) origin]
  obtain ⟨e00, e01, e10, e11, e20, e21⟩ := where1 t
  funext y
  show k1_pay1 (F := Ideal) (iblk1 V c 0 t) (iblk1 V c 1 t) y = hw2 V c (((cfg1.win 2).blk t).view.emb y)
  refine block_of_prod (V c main_v17 : S50000x256.Idx → EReal) (V c main_arg10 : S256x20.Idx → EReal)
    (iblk1 V c 0 t) (iblk1 V c 1 t) _ t.val (BlockProduct.second_entry _ _) ?_ ?_ y _ ?_ ?_
  · intro p k r hr
    show V c main_v17 (((cfg1.win 0).blk t).view.emb (ix2 p k)) = V c main_v17 (ix2 r k)
    refine congrArg (V c main_v17) (funext fun ax => Fin.ext ?_)
    match ax with
    | ⟨0, _⟩ => show win1_0.index t (0 : Fin 2) * 2000 + 1 * p.val = r.val; omega
    | ⟨1, _⟩ => show win1_0.index t (1 : Fin 2) * 256 + 1 * k.val = k.val; omega
  · funext z
    show V c main_arg10 (((cfg1.win 1).blk t).view.emb z) = V c main_arg10 z
    refine congrArg (V c main_arg10) (funext fun ax => Fin.ext ?_)
    match ax with
    | ⟨0, _⟩ => show win1_1.index t (0 : Fin 2) * 256 + 1 * (z 0).val = (z 0).val; omega
    | ⟨1, _⟩ => show win1_1.index t (1 : Fin 2) * 20 + 1 * (z 1).val = (z 1).val; omega
  · show win1_2.index t (0 : Fin 2) * 2000 + 1 * (y 0).val = t.val * 2000 + (y 0).val; omega
  · show win1_2.index t (1 : Fin 2) * 20 + 1 * (y 1).val = (y 1).val; omega

theorem mem_blk1 (t : Fin cfg1.N) (i : S50000x20.Idx) :
    i ∈ ((cfg1.win 2).blk t).view.set ↔ ∀ ax : Fin 2, win1_2.index t ax * S2000x20.size ax ≤ (i ax).val
      ∧ (i ax).val < win1_2.index t ax * S2000x20.size ax + S2000x20.size ax := by
  show i ∈ ((View.whole main_v18).slice (win1_2.rect t)).set ↔ _
  rw [View.set_slice_whole, Rect.mem_set_unit]
  exact Iff.rfl

/-- THE OUTPUT ARRAY after the second pallas_call is the product h · W2. -/
theorem final1 (c : Dev nD) : (dat1 V c).arrAt 2 cfg1.N = hw2 V c :=
  (dat1 V c).arrAt_eq_of_cover 2 (hw2 V c) (fun t _ => flushed1 V c t) fun i => by
    have hi0 : (i 0).val < 50000 := (i 0).isLt
    have hi1 : (i 1).val < 20 := (i 1).isLt
    have hN : cfg1.N = 25 := N_1
    refine ⟨⟨(i 0).val / 2000, by rw [hN]; omega⟩, flush1_2 _, ?_⟩
    rw [mem_blk1]
    obtain ⟨-, -, -, -, e20, e21⟩ := where1 ⟨(i 0).val / 2000, by rw [hN]; omega⟩
    intro ax
    match ax with
    | ⟨0, _⟩ =>
      show win1_2.index _ (0 : Fin 2) * 2000 ≤ (i 0).val ∧ (i 0).val < win1_2.index _ (0 : Fin 2) * 2000 + 2000
      rw [e20]; show (i 0).val / 2000 * 2000 ≤ (i 0).val ∧ (i 0).val < (i 0).val / 2000 * 2000 + 2000; omega
    | ⟨1, _⟩ =>
      show win1_2.index _ (1 : Fin 2) * 20 ≤ (i 1).val ∧ (i 1).val < win1_2.index _ (1 : Fin 2) * 20 + 20
      rw [e21]; omega

end Cert.KernelIdeal.RegionValue

end
-- ==== Proof.ProductBridge.lean ====
/-
  The host's matrix product is the entry-by-entry product.

  The reference's two dense products are `dot_general`s contracting the one shared axis; on the extended reals such a
  product read at (r, q) is the sum over k of lhs (r, k) · rhs (k, q), which is the function `MatProduct.prod` the
  pallas_calls were shown to leave in their output arrays.
-/
import proofs.«149476_j44890998178564_1_alg».proof.Proof.Gen.ReferenceIdeal.Read
import proofs.«149476_j44890998178564_1_alg».proof.Proof.LibMatProduct
import proofs.«149476_j44890998178564_1_alg».proof.Proof.LibRowOps

noncomputable section

namespace Cert.ReferenceIdeal.Product

open Cert.ReferenceIdeal Cert.ReferenceIdeal.Gen Cert.ReferenceIdeal.Read Cert.MatProduct
open Idealize.ShloMosaic Idealize.ShloMosaic.ValueIdx
open scoped BigOperators

/-- x · W1 on the host is the product. -/
theorem first (x : S50000x300.Idx → EReal) (w : S300x256.Idx → EReal) :
    Host.dotGeneral (F := Ideal) (φ₁ := .f32) (φ₂ := .f32) dot_S50000x300_S300x256_S50000x256_1_0_0_1_n_n none x w = prod x w := by
  funext i
  obtain ⟨r, q, rfl⟩ : ∃ (r : Fin 50000) (q : Fin 256), i = ix2 r q := ⟨i 0, i 1, eq_ix2 i⟩
  rw [Cert.RowOps.dotGeneral_entry dot_S50000x300_S300x256_S50000x256_1_0_0_1_n_n rfl rfl
    lhs_main_v0_0 lhs_main_v0_1 rhs_main_v0_0 rhs_main_v0_1 none x w r q]
  rfl

/-- h · W2 on the host is the product. -/
theorem second (x : S50000x256.Idx → EReal) (w : S256x20.Idx → EReal) :
    Host.dotGeneral (F := Ideal) (φ₁ := .f32) (φ₂ := .f32) dot_S50000x256_S256x20_S50000x20_1_0_0_1_n_n none x w = prod x w := by
  funext i
  obtain ⟨r, q, rfl⟩ : ∃ (r : Fin 50000) (q : Fin 20), i = ix2 r q := ⟨i 0, i 1, eq_ix2 i⟩
  rw [Cert.RowOps.dotGeneral_entry dot_S50000x256_S256x20_S50000x20_1_0_0_1_n_n rfl rfl
    lhs_main_v18_0 lhs_main_v18_1 rhs_main_v18_0 rhs_main_v18_1 none x w r q]
  rfl

end Cert.ReferenceIdeal.Product

end
-- ==== Proof.LibHostOps.lean ====
/-
  Host operations on matrices read at an entry written by coordinates.

  • A vector `[b]` made a one-row matrix and broadcast over `a` rows reads, at `(p, q)`, the vector at `q`.
  • A vector `[a]` made a one-column matrix and broadcast over `b` columns reads, at `(p, c)`, the vector at `p`.
  • A scalar broadcast to any shape reads the scalar everywhere.
  • Two matrices joined along their columns read, left of the seam, the first, and right of it the second.
  • The host's sum over the columns of a matrix, read at row `p`, is the initial value plus the sum of that row.
  • The host's logarithm and exponential read elementwise.
  • A sum over `a + b` indices is the sum over the first `a` plus the sum over the last `b`.
-/
import Idealize.ShloMosaic.Lib.Pipeline.Value
import Idealize.ShloMosaic.Lib.ValueIdx
import Idealize.ShloMosaic.PureOps.Ideal.Laws

namespace Cert.HostOps

open Idealize.ShloMosaic Idealize.ShloMosaic.ValueIdx
open scoped BigOperators

variable {α : Type}

/-- A scalar broadcast to any shape reads the scalar at every index. -/
theorem bcast_scalar {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A vector as a one-row matrix. -/
theorem bcast_vec_row {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A one-row matrix broadcast over the rows. -/
theorem bcast_row_rows {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

/-- A vector as a one-column matrix. -/
theorem bcast_vec_col {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A one-column matrix broadcast over the columns. -/
theorem bcast_col_cols {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- Left of the seam a column-wise join reads its first piece. -/
theorem concat_cols_left {n a b c : ℕ} (u : (⟨2, ![n, a]⟩ : Shape).Idx → α) (v : (⟨2, ![n, b]⟩ : Shape).Idx → α)
    (h : Shape.Concatenates [⟨2, ![n, a]⟩, ⟨2, ![n, b]⟩] ⟨2, ![n, c]⟩ 1) (p : Fin n) (k : Fin a) (j : Fin c)
    (hj : j.val = k.val) :
    concatenate ⟨2, ![n, c]⟩ 1 [⟨⟨2, ![n, a]⟩, u⟩, ⟨⟨2, ![n, b]⟩, v⟩] h (ix2 p j) = u (ix2 p k) :=
  concatenate_pair_apply_left 1 u v h (ix2 p j) rfl (ix2 p k) (fun ax => by
    match ax with
    | ⟨0, _⟩ => rfl
    | ⟨1, _⟩ => exact hj.symm)

/-- Right of the seam it reads its second piece, the first piece's width taken off the column. -/
theorem concat_cols_right {n a b c : ℕ} (u : (⟨2, ![n, a]⟩ : Shape).Idx → α) (v : (⟨2, ![n, b]⟩ : Shape).Idx → α)
    (h : Shape.Concatenates [⟨2, ![n, a]⟩, ⟨2, ![n, b]⟩] ⟨2, ![n, c]⟩ 1) (p : Fin n) (k : Fin b) (j : Fin c)
    (hj : j.val = a + k.val) :
    concatenate ⟨2, ![n, c]⟩ 1 [⟨⟨2, ![n, a]⟩, u⟩, ⟨⟨2, ![n, b]⟩, v⟩] h (ix2 p j) = v (ix2 p k) :=
  concatenate_pair_apply_right 1 u v h (ix2 p j) rfl rfl (ix2 p k) (fun ax hne => by
    match ax with
    | ⟨0, _⟩ => rfl
    | ⟨1, _⟩ => exact absurd rfl hne) (by
    show k.val + a = j.val
    omega)

/-- The host's sum over the columns, at a row. -/
theorem hostReduceAdd_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd (F := Ideal) x init h' hu (ix1 p) = init ix0 + ∑ k : Fin b, x (ix2 p k) := by
  simp only [Host.reduceAdd, Ideal.hostReduceAdd_def]
  rw [Ideal.hostReduceAdd_single h' h, eq_ix0 (Shape.Idx.first hu)]
  refine congrArg (_ + ·) (Finset.sum_congr rfl fun k _ => ?_)
  exact congrArg x (funext fun ax => Fin.ext (by match ax with | ⟨0, _⟩ => rfl | ⟨1, _⟩ => rfl))

/-- The host's logarithm and exponential, at an index, are the extended reals'. -/
theorem hostLog_apply {s : Shape} {φ : FTy} (x : FVec Ideal s φ) (i : s.Idx) :
    Host.log (F := Ideal) x i = Ideal.log (x i) := rfl
theorem hostExp_apply {s : Shape} {φ : FTy} (x : FVec Ideal s φ) (i : s.Idx) :
    Host.exp (F := Ideal) x i = Ideal.exp (x i) := rfl

/-- A sum over `a + b` indices splits at `a`. -/
theorem sum_split {M : Type} [AddCommMonoid M] (a b : ℕ) (f : Fin (a + b) → M) :
    ∑ k, f k = ∑ k : Fin a, f (Fin.castAdd b k) + ∑ k : Fin b, f (Fin.natAdd a k) :=
  Fin.sum_univ_add f

end Cert.HostOps
-- ==== Proof.LibGatherRows.lean ====
/-
  GATHERING BY ID, READ AT AN ENTRY.

  Indexing an array by an integer array of ids, x[ids], is a gather whose start index has one component, the id,
  addressing the operand's axis 0, which is collapsed. It comes in two forms:

  * ROWS: operand of shape [N, C], start indices [E, 1], result [E, C]; the result's axis 1 is the offset axis and
    runs over the operand's columns (the slice is one whole row, of sizes [1, C]), the index vector lies along axis 1
    of the start indices;
  * FLAT: operand [N], start indices [E, 1], result [E]; no offset axis, slices of size [1].

  A gather clamps every start index so that the slice fits: the id ids[e, 0] is read as a SIGNED integer, a negative
  one becomes 0, and one above N − 1 becomes N − 1. So the row form read at entry (e, c) is the operand at
  (min (max id 0) (N − 1), c), and the flat form read at e is the operand at min (max id 0) (N − 1). (For a signed
  integer z the natural number z.toNat is max z 0.)
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- Of two axes, the second is not the first. -/
theorem fin2_one_ne_zero : ¬ (1 : Fin 2) = 0 := by decide

/-! ## Rows: operand [N, C], start indices [E, 1], result [E, C] -/

/-- The dimension numbers of the row form. Their conditions wf are decided on a program's literal shapes. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT ENTRY (e, c): the operand's entry (r, c), where r is the id ids[e, 0] read signed and
    clamped into [0, N − 1]. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N C E wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowDims N C E wf).start (ix2 e c) idx 0 + (rowDims N C E wf).batchCoord (ix2 e c) 0
      + (rowDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e c) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e c) idx 1 + (rowDims N C E wf).batchCoord (ix2 e c) 1
      + (rowDims N C E wf).offCoord (ix2 e c) 1 = c.val
    rw [GatherDims.batchCoord_eq_zero _ _ _ List.not_mem_nil]
    unfold GatherDims.start
    rw [dif_neg (show ¬ (1 : Fin 2) ∈ (rowDims N C E wf).startIndexMap from
      fun h => absurd (List.mem_singleton.mp h) fin2_one_ne_zero)]
    unfold GatherDims.offCoord
    rw [dif_pos (show (1 : Fin 2) ∈ (rowDims N C E wf).sKept from
      (GatherDims.mem_sKept _ _).mpr ⟨fun h => absurd (List.mem_singleton.mp h) fin2_one_ne_zero, List.not_mem_nil⟩)]
    simp only [Nat.zero_add]
    rfl

/-! ## Flat: operand [N], start indices [E, 1], result [E] -/

/-- The dimension numbers of the flat form. Their conditions wf are decided on a program's literal shapes. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT e: the operand's entry r, where r is the id ids[e, 0] read signed and clamped into
    [0, N − 1]. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (flatDims N E wf).start (ix1 e) idx 0 + (flatDims N E wf).batchCoord (ix1 e) 0
    + (flatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx (ix1 e) ⟨List.idxOf (0 : Fin 1) (flatDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Idealize.ShloMosaic.GatherRows

end
-- ==== Proof.LibRowSoftmax.lean ====
/-
  A row softmax commutes with taking rows.

  The host computes the softmax of every row of an [a, b] matrix X in seven steps: the row maxima (a fold of max
  from −∞, joined once more with −∞), made a column and stretched over the columns; the difference X − max; its
  exponential E; the row sums of E (from 0), made a column and stretched; the quotient E / sum. Entry (p, j) of the
  result depends on row p of X alone: it is one function, `rowSm`, of that row. A row gather G = X[ids] has row e
  equal to row r(e) of X, r(e) the clamped id. Hence softmax(X[ids]) and softmax(X)[ids] agree entry by entry: both
  are `rowSm` of row r(e) of X at j. No arithmetic on the extended reals is used, only that the two sides apply the
  same function to the same row.
-/
import Idealize.ShloMosaic.Lib.Pipeline.Value
import Idealize.ShloMosaic.Lib.ValueIdx
import Idealize.ShloMosaic.PureOps.Ideal.Laws
import proofs.«149476_j44890998178564_1_alg».proof.Proof.LibRowOps
import proofs.«149476_j44890998178564_1_alg».proof.Proof.LibHostOps
import proofs.«149476_j44890998178564_1_alg».proof.Proof.LibGatherRows

noncomputable section

namespace Cert.RowSoftmax

open Idealize.ShloMosaic Idealize.ShloMosaic.ValueIdx
open scoped BigOperators

/-- The shapes the softmax of an [a, b] matrix passes through. -/
abbrev Sc : Shape := ⟨0, ![]⟩
abbrev Vc (a : ℕ) : Shape := ⟨1, ![a]⟩
abbrev Col (a : ℕ) : Shape := ⟨2, ![a, 1]⟩
abbrev Mat (a b : ℕ) : Shape := ⟨2, ![a, b]⟩

/-- The side conditions the softmax's host operations state on an [a, b] matrix. -/
structure Conds (a b : ℕ) : Prop where
  red : (Mat a b).ReducesTo [1] (Vc a)
  unit : 0 < Sc.numel
  b0 : Sc.BroadcastsInDim (Vc a) ![]
  b1 : (Vc a).BroadcastsInDim (Col a) ![0]
  b2 : (Col a).BroadcastsInDim (Mat a b) ![0, 1]

variable {a b : ℕ}

/-- exp (X − rowmax X), the row maxima stretched over the columns, in the host's spelling. -/
def expShifted (c : Conds a b) (X : FVec Ideal (Mat a b) .f32) : FVec Ideal (Mat a b) .f32 :=
  Host.exp (subf X (broadcastInDim (Mat a b) ![0, 1] c.b2 (broadcastInDim (Col a) ![0] c.b1
    (maximumf (broadcastInDim (Vc a) ![] c.b0 (constant Sc .f32 0xFF800000#32))
      (Host.reduce FloatOps.maximumf X (constant Sc .f32 0xFF800000#32) c.red c.unit)))))

/-- The softmax of every row, in the host's spelling. -/
def hostSoftmax (c : Conds a b) (X : FVec Ideal (Mat a b) .f32) : FVec Ideal (Mat a b) .f32 :=
  Host.divf (expShifted c X) (broadcastInDim (Mat a b) ![0, 1] c.b2 (broadcastInDim (Col a) ![0] c.b1
    (Host.reduceAdd (expShifted c X) (constant Sc .f32 0x00000000#32) c.red c.unit)))

/-- A row's maximum as the host takes it: the fold of max from the −∞ word, joined with that word once more. -/
def rowMax (r : Fin b → EReal) : EReal :=
  max (Ideal.ofBits .f32 0xFF800000#32)
    ((Finset.univ : Finset (Fin b)).fold max (Ideal.ofBits .f32 0xFF800000#32) r)

/-- The softmax of ONE row at column j. -/
def rowSm (r : Fin b → EReal) (j : Fin b) : EReal :=
  Ideal.div (Ideal.exp (r j - rowMax r))
    (Ideal.ofBits .f32 0x00000000#32 + ∑ k : Fin b, Ideal.exp (r k - rowMax r))

/-- exp (X − rowmax X) at (p, j) reads row p only. -/
theorem expShifted_apply (c : Conds a b) (hr : (Mat a b).Reduces [1] (Vc a)) (X : FVec Ideal (Mat a b) .f32)
    (p : Fin a) (j : Fin b) :
    expShifted c X (ix2 p j) = Ideal.exp (X (ix2 p j) - rowMax fun k => X (ix2 p k)) := by
  unfold expShifted
  rw [Cert.HostOps.hostExp_apply, subf_apply, Cert.HostOps.bcast_col_cols, Cert.HostOps.bcast_vec_col, maximumf_apply,
    Cert.HostOps.bcast_scalar, Cert.RowOps.hostReduce_max_rows X _ c.red hr c.unit p]
  rfl

/-- THE SOFTMAX AT AN ENTRY: entry (p, j) is `rowSm` of row p at j. -/
theorem hostSoftmax_apply (c : Conds a b) (hr : (Mat a b).Reduces [1] (Vc a)) (X : FVec Ideal (Mat a b) .f32)
    (p : Fin a) (j : Fin b) :
    hostSoftmax c X (ix2 p j) = rowSm (fun k => X (ix2 p k)) j := by
  unfold hostSoftmax
  have hd : ∀ (u v : FVec Ideal (Mat a b) .f32) (i : (Mat a b).Idx), Host.divf u v i = Ideal.div (u i) (v i) :=
    fun _ _ _ => rfl
  rw [hd, Cert.HostOps.bcast_col_cols, Cert.HostOps.bcast_vec_col,
    Cert.HostOps.hostReduceAdd_rows _ _ c.red hr c.unit p, expShifted_apply c hr X p j]
  unfold rowSm
  refine congrArg (Ideal.div _ ·) (congrArg (_ + ·) (Finset.sum_congr rfl fun k _ => ?_))
  exact expShifted_apply c hr X p k

/-- SOFTMAX AND ROW GATHER COMMUTE: for a [N, b] matrix X and ids [E, 1], the softmax of the gathered rows is the
    gathered rows of the softmax, as [E, b] arrays. -/
theorem softmax_gather_comm {N E w : ℕ} (hN : 0 < N) (cE : Conds E b) (cN : Conds N b)
    (hrE : (Mat E b).Reduces [1] (Vc E)) (hrN : (Mat N b).Reduces [1] (Vc N))
    (wf : GatherDims.WF (Mat N b) (Col E) (Mat E b) [1] [0] [] [0] [] 1 ![1, b])
    (X : FVec Ideal (Mat N b) .f32) (ids : IVec (Col E) w) :
    hostSoftmax cE (Host.gather (GatherRows.rowDims N b E wf) X ids)
      = Host.gather (GatherRows.rowDims N b E wf) (hostSoftmax cN X) ids := by
  funext i
  obtain ⟨e, j, rfl⟩ : ∃ (e : Fin E) (j : Fin b), i = ix2 e j := ⟨i 0, i 1, eq_ix2 i⟩
  rw [hostSoftmax_apply cE hrE _ e j, GatherRows.gather_rows_apply hN wf _ ids e j, hostSoftmax_apply cN hrN X _ j]
  exact congrArg (rowSm · j) (funext fun k => GatherRows.gather_rows_apply hN wf X ids e k)

end Cert.RowSoftmax

end
-- ==== Proof.KernelChain.lean ====
/-
  The kernel program's result, boundary by boundary.

  Write x0 … x11 for the argument arrays at launch. The fold of buffer contents through @main is opened one segment at a
  time, and at each boundary the value of the one buffer the next segment reads is identified with a function of the
  arguments — the same function the reference's operations compute, so it is carried as ONE name and never opened:
    · after the first pallas_call its output array is the product x0 · x8, which is the host's product (stage 0);
    · the first host stretch — gather the product's rows by the source ids, scale by the edge values, sum into the
      destination rows, add the bias, clamp at zero — applies to it exactly the reference's operations (stage 17);
    · after the second pallas_call its output array is the product of that with x10 (stage 18);
    · the last host stretch forms the logits by the reference's operations again (stage 34), THEN takes the rows the
      ids x7 name, and only then the softmax of each row: the result is the row softmax of the gathered logits.
  The arguments themselves reach every boundary as launched: no host operation and no pallas_call writes one.
-/
import proofs.«149476_j44890998178564_1_alg».proof.Proof.Gen.KernelIdeal.Frame
import proofs.«149476_j44890998178564_1_alg».proof.Proof.Gen.ReferenceIdeal.Read
import proofs.«149476_j44890998178564_1_alg».proof.Proof.RegionValue
import proofs.«149476_j44890998178564_1_alg».proof.Proof.ProductBridge
import proofs.«149476_j44890998178564_1_alg».proof.Proof.LibRowSoftmax
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Read (val_main_v0 val_main_v16 val_main_v17 val_main_v18 val_main_v34 val_main_v51)

variable (m : (ℓ : Loc nD τ sig) → Buf (Elt Ideal) ℓ) (ρ : Dev nD → PrngReg) (c : Dev nD)

/-! ## The arguments at the boundaries -/

/-- A buffer that is no array of the first pallas_call holds at its exit what it held at launch. -/
theorem kept_W1 (b : Ref sig .tc) (hb : ∀ w, Pipeline.arrRef spec0 w ≠ b) :
    W1 m ρ c (Proc.devRef .tc b) = m ((c : Thread nD τ).loc b) :=
  W1_of_ne m ρ c b hb

/-- The second weight matrix enters the second pallas_call as launched: the host stretch between writes no argument. -/
theorem kept_W3_arg10 : W3 m ρ c (Proc.devRef .tc main_arg10) = m ((c : Thread nD τ).loc main_arg10) := by
  show StableHlo.after hostOps1_1 (StableHlo.after hostOps1 (W1 m ρ c)) (Proc.devRef .tc main_arg10) = _
  after_results
  exact kept_W1 m ρ c main_arg10 (by decide)

/-- What the last host stretch reads of the arguments, as launched. -/
theorem kept_W4 (b : Ref sig .tc) (hb1 : ∀ w, Pipeline.arrRef spec1 w ≠ b) (hb0 : ∀ w, Pipeline.arrRef spec0 w ≠ b)
    (hmid : StableHlo.after hostOps1_1 (StableHlo.after hostOps1 (W1 m ρ c)) (Proc.devRef .tc b) = W1 m ρ c (Proc.devRef .tc b)) :
    W4 m ρ c (Proc.devRef .tc b) = m ((c : Thread nD τ).loc b) :=
  (W4_of_ne m ρ c b hb1).trans (hmid.trans (kept_W1 m ρ c b hb0))

theorem kept_W4_arg4 : W4 m ρ c (Proc.devRef .tc main_arg4) = m ((c : Thread nD τ).loc main_arg4) :=
  kept_W4 m ρ c main_arg4 (by decide) (by decide) (by after_results)
theorem kept_W4_arg5 : W4 m ρ c (Proc.devRef .tc main_arg5) = m ((c : Thread nD τ).loc main_arg5) :=
  kept_W4 m ρ c main_arg5 (by decide) (by decide) (by after_results)
theorem kept_W4_arg6 : W4 m ρ c (Proc.devRef .tc main_arg6) = m ((c : Thread nD τ).loc main_arg6) :=
  kept_W4 m ρ c main_arg6 (by decide) (by decide) (by after_results)
theorem kept_W4_arg7 : W4 m ρ c (Proc.devRef .tc main_arg7) = m ((c : Thread nD τ).loc main_arg7) :=
  kept_W4 m ρ c main_arg7 (by decide) (by decide) (by after_results)
theorem kept_W4_arg11 : W4 m ρ c (Proc.devRef .tc main_arg11) = m ((c : Thread nD τ).loc main_arg11) :=
  kept_W4 m ρ c main_arg11 (by decide) (by decide) (by after_results)

/-! ## The first layer -/

/-- After the first pallas_call its output array is the host's product x0 · x8. -/
theorem xw1_at : W1 m ρ c (Proc.devRef .tc main_v0) = val_main_v0 (F := Ideal) (m ((c : Thread nD τ).loc main_arg0)) (m ((c : Thread nD τ).loc main_arg8)) := by
  refine (W1_arr m ρ c 2).trans ((RegionValue.final0 (V0 m ρ) c).trans ?_)
  unfold val_main_v0
  exact (Cert.ReferenceIdeal.Product.first _ _).symm

/-- Before the clamp: the first host stretch's last value, the reference's stage of the arguments. -/
theorem preact_at : W2 m ρ c (Proc.devRef .tc main_v16) = val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) := by
  show StableHlo.after hostOps1 (W1 m ρ c) (Proc.devRef .tc main_v16) = _
  after_results_simp
  rw [xw1_at m ρ c, kept_W1 m ρ c main_arg1 (by decide), kept_W1 m ρ c main_arg2 (by decide),
    kept_W1 m ρ c main_arg3 (by decide), kept_W1 m ρ c main_arg9 (by decide)]
  rfl

/-- The clamp at zero of a value held in a buffer, read after the three operations that make it: of the contents
    before them only the clamped buffer's matter. -/
theorem clamp_of (V2 : Valuation τ sig (Elt Ideal)) (z : (⟨Cert.ReferenceIdeal.S50000x256, .f32⟩ : BufTy).Contents (Elt Ideal))
    (hz : V2 (Proc.devRef .tc main_v16) = z) :
    (StableHlo.after hostOps1_1 V2 (Proc.devRef .tc main_v17) : (⟨Cert.ReferenceIdeal.S50000x256, .f32⟩ : BufTy).Contents (Elt Ideal))
      = maximumf (F := Ideal) (s := Cert.ReferenceIdeal.S50000x256) (φ := .f32) z
          (Cert.ReferenceIdeal.Read.val_main_call0_v0 (F := Ideal)) := by
  after_results
  rw [hz]
  rfl

/-- The hidden layer, as the second pallas_call finds it: the reference's stage of the arguments. -/
theorem hidden_at : W3 m ρ c (Proc.devRef .tc main_v17) = val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) := by
  show StableHlo.after hostOps1_1 (W2 m ρ c) (Proc.devRef .tc main_v17) = _
  rw [clamp_of (W2 m ρ c) _ (preact_at m ρ c)]
  rfl

/-! ## The second layer -/

/-- After the second pallas_call its output array is the host's product of the hidden layer with x10. -/
theorem hw2_at : W4 m ρ c (Proc.devRef .tc main_v18) = val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) := by
  refine (W4_arr m ρ c 2).trans ((RegionValue.final1 (V3 m ρ) c).trans ?_)
  unfold val_main_v18
  rw [Cert.ReferenceIdeal.Product.second]
  show Cert.MatProduct.prod (W3 m ρ c (Proc.devRef .tc main_v17)) (W3 m ρ c (Proc.devRef .tc main_arg10)) = _
  rw [hidden_at m ρ c, kept_W3_arg10 m ρ c]

/-! ## The result -/

/-- The side conditions of the softmax on the 5000 selected rows, as the kernel program states them. -/
theorem conds : Cert.RowSoftmax.Conds 5000 20 :=
  ⟨reducesTo_S5000x20_S5000_d1, h_S_, bcast_S_S5000, bcast_S5000_S5000x1_0, bcast_S5000x1_S5000x20_0_1⟩

/-- THE KERNEL PROGRAM'S RESULT: the row softmax of the logits' rows named by the ids x7. -/
theorem result_at : W5 m ρ c (Proc.devRef .tc main_v52)
    = Cert.RowSoftmax.hostSoftmax conds
        (Host.gather (GatherRows.rowDims 50000 20 5000 gather_S50000x20_S5000x1_S5000x20_1_0_n_n_0_1_120_wf)
          (val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)))
          (val_main_v51 (F := Ideal) (m ((c : Thread nD τ).loc main_arg7)))) := by
  show StableHlo.after hostOps2 (W4 m ρ c) (Proc.devRef .tc main_v52) = _
  after_results_simp
  rw [hw2_at m ρ c, kept_W4_arg4 m ρ c, kept_W4_arg5 m ρ c, kept_W4_arg6 m ρ c, kept_W4_arg7 m ρ c,
    kept_W4_arg11 m ρ c]
  rfl

end Cert.KernelIdeal.Chain

end
-- ==== Proof.RefChain.lean ====
/-
  The reference program's result.

  The reference forms the same logits as the kernel program (stage 34 of its operations, a function of the arguments),
  takes the softmax of EVERY row of the [50000, 20] logits, and only then takes the rows the ids name. Its last
  operations are, word for word, the row softmax in the host's spelling followed by the row gather.
-/
import proofs.«149476_j44890998178564_1_alg».proof.Proof.Gen.ReferenceIdeal.Read
import proofs.«149476_j44890998178564_1_alg».proof.Proof.LibRowSoftmax

set_option maxRecDepth 16384

noncomputable section

namespace Cert.ReferenceIdeal.Chain

open Cert.ReferenceIdeal Cert.ReferenceIdeal.Gen Cert.ReferenceIdeal.Read
open Idealize.ShloMosaic Idealize.ShloMosaic.TcCoe Idealize.SL.Sem

/-- The side conditions of the softmax on all 50000 rows, as the reference program states them. -/
theorem conds : Cert.RowSoftmax.Conds 50000 20 :=
  ⟨reducesTo_S50000x20_S50000_d1, h_S_, bcast_S_S50000, bcast_S50000_S50000x1_0, bcast_S50000x1_S50000x20_0_1⟩

/-- The reference's softmax stage is the row softmax of its logits stage. -/
theorem softmax_stage (x0 : S50000x300.Idx → EReal) (x1 x2 : IVec S800000 32) (x3 : S800000.Idx → EReal)
    (x4 x5 : IVec S800000 32) (x6 : S800000.Idx → EReal) (x8 : S300x256.Idx → EReal) (x9 : S256.Idx → EReal)
    (x10 : S256x20.Idx → EReal) (x11 : S20.Idx → EReal) :
    val_main_v45 (F := Ideal) x0 x1 x2 x3 x4 x5 x6 x8 x9 x10 x11
      = Cert.RowSoftmax.hostSoftmax conds (val_main_v34 (F := Ideal) x0 x1 x2 x3 x4 x5 x6 x8 x9 x10 x11) := by
  unfold val_main_v45 val_main_v44 val_main_v43 val_main_v42 val_main_v41 val_main_v40 val_main_v39 val_main_v38
    val_main_v37 val_main_v36 val_main_v35 val_main_cst_4 val_main_cst_5 val_main_cst_6
  generalize val_main_v34 (F := Ideal) x0 x1 x2 x3 x4 x5 x6 x8 x9 x10 x11 = L
  rfl

variable (m : (ℓ : Loc nD τ sig) → Buf (Elt Ideal) ℓ) (c : Dev nD)

/-- THE REFERENCE PROGRAM'S RESULT: the rows named by the ids x7 of the row softmax of the logits. -/
theorem result_eq : Cert.ReferenceIdeal.Value.res_main_v52 m c
    = Host.gather (GatherRows.rowDims 50000 20 5000 gather_S50000x20_S5000x1_S5000x20_1_0_n_n_0_1_120_wf)
        (Cert.RowSoftmax.hostSoftmax conds (val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11))))
        (val_main_v51 (F := Ideal) (m ((c.tc : Thread nD τ).loc main_arg7))) := by
  rw [val_main_v52_eq]
  unfold val_main_v52
  rw [softmax_stage]
  rfl

end Cert.ReferenceIdeal.Chain

end
-- ==== Proof.lean ====
/-
  A two-layer graph convolution against its jnp reference, on the extended reals.

  Both programs compute, for node features x, two sparse matrices in coordinate form (rows, columns, values), weights and
  biases,
      h      = max (FN · (x · W1) + b1, 0),      logits = NF · (h · W2) + b2,      result = softmax over each row of logits, at the rows idx,
  where a sparse product A · D gathers the rows of D named by A's column ids, scales them by A's values and sums them
  into the rows named by A's row ids. The programs differ in two places only.

  1. The kernel program computes x · W1 and h · W2 in two pallas_calls of 25 grid points each: point t multiplies rows
     2000·t … 2000·t + 1999 by the whole weight matrix (after narrowing both to bf16, the identity on the extended reals)
     into a zero accumulator. An entry of a matrix product reads one row of its left factor, so each row block written back
     is that block of the whole product, the blocks tile the output, and the output array ends at the product — which is
     what the reference's dot_general computes (Proof/BlockProduct, Proof/RegionValue, Proof/ProductBridge).
  2. The kernel program takes the rows idx of the logits FIRST and the softmax of those 5000 rows after; the reference takes
     the softmax of all 50000 rows and the rows idx of that. Entry (e, j) of a row softmax is one function of row e alone,
     and row e of a gathered matrix is row r(e) of the matrix (r(e) the id, clamped into range): both orders give that
     function of row r(e) of the logits at j (Proof/LibRowSoftmax).
  Everything else — the id normalisation, the gathers, the scalings, the scatter-adds, the biases, the clamp — is the same
  operations on both sides applied to equal values, and is never opened (Proof/KernelChain, Proof/RefChain). No step
  needs the inputs finite: no law of arithmetic beyond "equal arguments, equal values" is used outside the matrix
  products, where both sides are the same finite sum.

  The kernel program's run is read off its five segments (Proof/KernelRun); the reference's run is its generated one.
-/
import proofs.«149476_j44890998178564_1_alg».proof.Defs
import proofs.«149476_j44890998178564_1_alg».proof.Proof.Gen.Kernel
import proofs.«149476_j44890998178564_1_alg».proof.Proof.Gen.Kernel.Skeleton
import proofs.«149476_j44890998178564_1_alg».proof.Proof.Gen.Kernel.Launch
import proofs.«149476_j44890998178564_1_alg».proof.Proof.Gen.Kernel.Points
import proofs.«149476_j44890998178564_1_alg».proof.Proof.Gen.Kernel.Frame
import proofs.«149476_j44890998178564_1_alg».proof.Proof.Gen.KernelIdeal
import proofs.«149476_j44890998178564_1_alg».proof.Proof.Gen.KernelIdeal.Skeleton
import proofs.«149476_j44890998178564_1_alg».proof.Proof.Gen.KernelIdeal.Launch
import proofs.«149476_j44890998178564_1_alg».proof.Proof.Gen.KernelIdeal.Points
import proofs.«149476_j44890998178564_1_alg».proof.Proof.Gen.KernelIdeal.Frame
import proofs.«149476_j44890998178564_1_alg».proof.Proof.Gen.ReferenceIdeal
import proofs.«149476_j44890998178564_1_alg».proof.Proof.Gen.ReferenceIdeal.Run
import proofs.«149476_j44890998178564_1_alg».proof.Proof.Gen.ReferenceIdeal.Read
import proofs.«149476_j44890998178564_1_alg».proof.Proof.Gen.Pre_finite_inputs
import proofs.«149476_j44890998178564_1_alg».proof.Proof.KernelRun
import proofs.«149476_j44890998178564_1_alg».proof.Proof.KernelChain
import proofs.«149476_j44890998178564_1_alg».proof.Proof.RefChain
import proofs.«149476_j44890998178564_1_alg».proof.Proof.LibRowSoftmax
import Idealize.ShloMosaic.Adequacy
import Idealize.ShloMosaic.Init

noncomputable section

namespace Cert.Proof

open Idealize.ShloMosaic Idealize.SL.Sem

/-- The printed kernel program runs and leaves its arguments as launched. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs run, and end with the same result: the kernel program's is
    the row softmax of the gathered logits, the reference's the gathered rows of the row softmax of the same logits. -/
theorem algebraic : Cert.algebraic_KernelIdeal_ReferenceIdeal := by
  intro m ρ m' ρ' _ hagree
  refine ⟨fun c => Cert.KernelIdeal.Gen.W5 m ρ c (Proc.devRef .tc Cert.KernelIdeal.main_v52),
    Cert.KernelIdeal.Result.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  beta_reduce
  rw [Cert.ReferenceIdeal.Chain.result_eq m' c, Cert.KernelIdeal.Chain.result_at m ρ c,
    h0, h1, h2, h3, h4, h5, h6, h7, h8, h9, h10, h11]
  exact (Cert.RowSoftmax.softmax_gather_comm (by decide) _ _ (by decide) (by decide) _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
